-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x4096 : Shape := ⟨2, ![4096, 4096]⟩
abbrev S4096 : Shape := ⟨1, ![4096]⟩
abbrev S256 : Shape := ⟨1, ![256]⟩
abbrev S1 : Shape := ⟨1, ![1]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x4096 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1x4096 .f32) (main_arg1 : FVec F S4096x4096 .f32) (main_arg2 : FVec F S4096 .f32) (main_arg3 : FVec F S256 .f32) (main_arg4 : FVec F S1x4096 .f32) (main_arg5 : FVec F S1 .f32) (main_arg6 : IVec S4096x4096 32) (main_arg7 : IVec S4096 32) (main_arg8 : IVec S4096x4096 32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S1x4096 : Shape := ⟨2, ![1, 4096]⟩
abbrev S4096x4096 : Shape := ⟨2, ![4096, 4096]⟩
abbrev S4096 : Shape := ⟨1, ![4096]⟩
abbrev S256 : Shape := ⟨1, ![256]⟩
abbrev S1 : Shape := ⟨1, ![1]⟩
abbrev S_ : Shape := ⟨0, ![]⟩
abbrev S4096x4096x1 : Shape := ⟨3, ![4096, 4096, 1]⟩
abbrev S4096x1 : Shape := ⟨2, ![4096, 1]⟩
abbrev S1x1 : Shape := ⟨2, ![1, 1]⟩
abbrev S256x4096 : Shape := ⟨2, ![256, 4096]⟩
abbrev S1x256 : Shape := ⟨2, ![1, 256]⟩

abbrev nBuf : Space → Nat
  | .hbm => 106
  | .vmem => 16
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096, .f32⟩
  | .hbm, ⟨3, _⟩ => ⟨S256, .f32⟩
  | .hbm, ⟨4, _⟩ => ⟨S1x4096, .f32⟩
  | .hbm, ⟨5, _⟩ => ⟨S1, .f32⟩
  | .hbm, ⟨6, _⟩ => ⟨S4096x4096, .i32⟩
  | .hbm, ⟨7, _⟩ => ⟨S4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i1⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096x1, .i32⟩
  | .hbm, ⟨39, _⟩ => ⟨S4096x4096, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S4096x4096, .i32⟩
  | .hbm, ⟨47, _⟩ => ⟨S4096x4096, .i32⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S4096x4096, .i32⟩
  | .hbm, ⟨53, _⟩ => ⟨S4096x4096, .i1⟩
  | .hbm, ⟨54, _⟩ => ⟨S_, .i32⟩
  | .hbm, ⟨55, _⟩ => ⟨S_, .i1⟩
  | .hbm, ⟨56, _⟩ => ⟨S4096x4096, .i1⟩
  | .hbm, ⟨57, _⟩ => ⟨S4096x4096, .i1⟩
  | .hbm, ⟨58, _⟩ => ⟨S4096x4096, .i1⟩
  | .hbm, ⟨59, _⟩ => ⟨S4096x4096, .i32⟩
  | .hbm, ⟨60, _⟩ => ⟨S4096x4096, .i32⟩
  | .hbm, ⟨61, _⟩ => ⟨S4096x4096, .i32⟩
  | .hbm, ⟨62, _⟩ => ⟨S_, .i32⟩
  | .hbm, ⟨63, _⟩ => ⟨S4096x4096, .i32⟩
  | .hbm, ⟨64, _⟩ => ⟨S4096x4096, .i1⟩
  | .hbm, ⟨65, _⟩ => ⟨S_, .i32⟩
  | .hbm, ⟨66, _⟩ => ⟨S4096x4096, .i32⟩
  | .hbm, ⟨67, _⟩ => ⟨S4096x4096, .i32⟩
  | .hbm, ⟨68, _⟩ => ⟨S4096x4096, .i32⟩
  | .hbm, ⟨69, _⟩ => ⟨S4096x4096x1, .i32⟩
  | .hbm, ⟨70, _⟩ => ⟨S4096x4096, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S_, .i1⟩
  | .hbm, ⟨87, _⟩ => ⟨S4096, .i1⟩
  | .hbm, ⟨88, _⟩ => ⟨S4096, .i1⟩
  | .hbm, ⟨89, _⟩ => ⟨S4096, .i1⟩
  | .hbm, ⟨90, _⟩ => ⟨S4096, .i32⟩
  | .hbm, ⟨91, _⟩ => ⟨S4096, .i32⟩
  | .hbm, ⟨92, _⟩ => ⟨S4096, .i32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S4096x1, .i32⟩
  | .hbm, ⟨101, _⟩ => ⟨S4096, .f32⟩
  | .hbm, ⟨102, _⟩ => ⟨S1x4096, .f32⟩
  | .hbm, ⟨103, _⟩ => ⟨S1x4096, .f32⟩
  | .hbm, ⟨104, _⟩ => ⟨S1x1, .f32⟩
  | .hbm, ⟨105, _⟩ => ⟨S1x4096, .f32⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S1x256, .f32⟩
  | .local _ .vmem, ⟨15, _⟩ => ⟨S1x256, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v0 : Ref sig .tc := ⟨.hbm, 30, rfl⟩
abbrev main_c_0 : Ref sig .tc := ⟨.hbm, 31, rfl⟩
abbrev main_v1 : Ref sig .tc := ⟨.hbm, 32, rfl⟩
abbrev main_v2 : Ref sig .tc := ⟨.hbm, 33, rfl⟩
abbrev main_c_1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v8 : Ref sig .tc := ⟨.hbm, 61, rfl⟩
abbrev main_c_3 : Ref sig .tc := ⟨.hbm, 62, rfl⟩
abbrev main_v9 : Ref sig .tc := ⟨.hbm, 63, rfl⟩
abbrev main_v10 : Ref sig .tc := ⟨.hbm, 64, rfl⟩
abbrev main_c_4 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_c_5 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_v5 : Ref sig .tc := ⟨.hbm, 80, rfl⟩
abbrev main_call2_v6 : Ref sig .tc := ⟨.hbm, 81, rfl⟩
abbrev main_call2_c_2 : Ref sig .tc := ⟨.hbm, 82, rfl⟩
abbrev main_call2_v7 : Ref sig .tc := ⟨.hbm, 83, rfl⟩
abbrev main_call2_v8 : Ref sig .tc := ⟨.hbm, 84, rfl⟩
abbrev main_call2_c_3 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_v16 : Ref sig .tc := ⟨.hbm, 92, rfl⟩
abbrev main_c_6 : Ref sig .tc := ⟨.hbm, 93, rfl⟩
abbrev main_v17 : Ref sig .tc := ⟨.hbm, 94, rfl⟩
abbrev main_v18 : Ref sig .tc := ⟨.hbm, 95, rfl⟩
abbrev main_c_7 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  natLt_1_32 : 1 < 32
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x256 : S1x1.Broadcasts S1x256
  gather_S256_S4096x4096x1_S4096x4096_n_0_n_n_0_2_1_wf : GatherDims.WF S256 S4096x4096x1 S4096x4096 [] [0] [] [0] [] 2 ![1]
  gather_S256_S4096x1_S4096_n_0_n_n_0_1_1_wf : GatherDims.WF S256 S4096x1 S4096 [] [0] [] [0] [] 1 ![1]
  dot_S1x4096_S256x4096_S1x256_1_1_0_0_n_n_wf : DotDims.WF S1x4096 S256x4096 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def gather_S256_S4096x1_S4096_n_0_n_n_0_1_1 : GatherDims S256 S4096x1 S4096 where
  offsetDims := []
  collapsedSliceDims := [0]
  operandBatchingDims := []
  startIndicesBatchingDims := []
  startIndexMap := [0]
  indexVectorDim := 1
  sliceSizes := ![1]
  wf := gather_S256_S4096x1_S4096_n_0_n_n_0_1_1_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x4096 : Shape := ⟨2, ![1, 4096]⟩
abbrev S4096x4096 : Shape := ⟨2, ![4096, 4096]⟩
abbrev S4096 : Shape := ⟨1, ![4096]⟩
abbrev S256 : Shape := ⟨1, ![256]⟩
abbrev S1 : Shape := ⟨1, ![1]⟩
abbrev S_ : Shape := ⟨0, ![]⟩
abbrev S4096x4096x1 : Shape := ⟨3, ![4096, 4096, 1]⟩
abbrev S4096x1 : Shape := ⟨2, ![4096, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096, .f32⟩
  | .hbm, ⟨3, _⟩ => ⟨S256, .f32⟩
  | .hbm, ⟨4, _⟩ => ⟨S1x4096, .f32⟩
  | .hbm, ⟨5, _⟩ => ⟨S1, .f32⟩
  | .hbm, ⟨6, _⟩ => ⟨S4096x4096, .i32⟩
  | .hbm, ⟨7, _⟩ => ⟨S4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i1⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096x1, .i32⟩
  | .hbm, ⟨39, _⟩ => ⟨S4096x4096, .f32⟩
  | .hbm, ⟨40, _⟩ => ⟨S4096x4096, .i1⟩
  | .hbm, ⟨41, _⟩ => ⟨S4096x4096, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S_, .i1⟩
  | .hbm, ⟨58, _⟩ => ⟨S4096, .i1⟩
  | .hbm, ⟨59, _⟩ => ⟨S4096, .i1⟩
  | .hbm, ⟨60, _⟩ => ⟨S4096, .i1⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096, .f32⟩
  | .hbm, ⟨73, _⟩ => ⟨S4096, .i1⟩
  | .hbm, ⟨74, _⟩ => ⟨S4096, .f32⟩
  | .hbm, ⟨75, _⟩ => ⟨S4096x4096, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S4096x4096, .i32⟩
  | .hbm, ⟨86, _⟩ => ⟨S4096x4096, .i32⟩
  | .hbm, ⟨87, _⟩ => ⟨S_, .i32⟩
  | .hbm, ⟨88, _⟩ => ⟨S4096x4096, .i32⟩
  | .hbm, ⟨89, _⟩ => ⟨S4096x4096, .i1⟩
  | .hbm, ⟨90, _⟩ => ⟨S_, .i32⟩
  | .hbm, ⟨91, _⟩ => ⟨S4096x4096, .i32⟩
  | .hbm, ⟨92, _⟩ => ⟨S4096x4096, .i1⟩
  | .hbm, ⟨93, _⟩ => ⟨S_, .i32⟩
  | .hbm, ⟨94, _⟩ => ⟨S_, .i1⟩
  | .hbm, ⟨95, _⟩ => ⟨S4096x4096, .i1⟩
  | .hbm, ⟨96, _⟩ => ⟨S4096x4096, .i1⟩
  | .hbm, ⟨97, _⟩ => ⟨S4096x4096, .i1⟩
  | .hbm, ⟨98, _⟩ => ⟨S4096x4096, .i32⟩
  | .hbm, ⟨99, _⟩ => ⟨S4096x4096, .i32⟩
  | .hbm, ⟨100, _⟩ => ⟨S4096x4096, .i32⟩
  | .hbm, ⟨101, _⟩ => ⟨S_, .i32⟩
  | .hbm, ⟨102, _⟩ => ⟨S4096x4096, .i32⟩
  | .hbm, ⟨103, _⟩ => ⟨S4096x4096, .i1⟩
  | .hbm, ⟨104, _⟩ => ⟨S_, .i32⟩
  | .hbm, ⟨105, _⟩ => ⟨S4096x4096, .i32⟩
  | .hbm, ⟨106, _⟩ => ⟨S4096x4096, .i32⟩
  | .hbm, ⟨107, _⟩ => ⟨S4096x4096, .i32⟩
  | .hbm, ⟨108, _⟩ => ⟨S4096x4096x1, .i32⟩
  | .hbm, ⟨109, _⟩ => ⟨S4096x4096, .f32⟩
  | .hbm, ⟨110, _⟩ => ⟨S4096x4096, .i1⟩
  | .hbm, ⟨111, _⟩ => ⟨S4096x4096, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S_, .f32⟩
  | .hbm, ⟨116, _⟩ => ⟨S1x4096, .f32⟩
  | .hbm, ⟨117, _⟩ => ⟨S1x4096, .f32⟩
  | .hbm, ⟨118, _⟩ => ⟨S4096x4096, .f32⟩
  | .hbm, ⟨119, _⟩ => ⟨S1x4096, .f32⟩
  | .hbm, ⟨120, _⟩ => ⟨S1x4096, .f32⟩
  | .hbm, ⟨121, _⟩ => ⟨S1x4096, .f32⟩
  | .hbm, ⟨122, _⟩ => ⟨S1x1, .f32⟩
  | .hbm, ⟨123, _⟩ => ⟨S1x4096, .f32⟩
  | .hbm, ⟨124, _⟩ => ⟨S1x4096, .i1⟩
  | .hbm, ⟨125, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v0 : Ref sig .tc := ⟨.hbm, 30, rfl⟩
abbrev main_c_0 : Ref sig .tc := ⟨.hbm, 31, rfl⟩
abbrev main_v1 : Ref sig .tc := ⟨.hbm, 32, rfl⟩
abbrev main_v2 : Ref sig .tc := ⟨.hbm, 33, rfl⟩
abbrev main_c_1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_c_2 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v10 : Ref sig .tc := ⟨.hbm, 63, rfl⟩
abbrev main_c_3 : Ref sig .tc := ⟨.hbm, 64, rfl⟩
abbrev main_v11 : Ref sig .tc := ⟨.hbm, 65, rfl⟩
abbrev main_v12 : Ref sig .tc := ⟨.hbm, 66, rfl⟩
abbrev main_c_4 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_c_5 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v24 : Ref sig .tc := ⟨.hbm, 100, rfl⟩
abbrev main_c_6 : Ref sig .tc := ⟨.hbm, 101, rfl⟩
abbrev main_v25 : Ref sig .tc := ⟨.hbm, 102, rfl⟩
abbrev main_v26 : Ref sig .tc := ⟨.hbm, 103, rfl⟩
abbrev main_c_7 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_cst : Ref sig .tc := ⟨.hbm, 112, rfl⟩
abbrev main_v34 : Ref sig .tc := ⟨.hbm, 113, rfl⟩
abbrev main_v35 : Ref sig .tc := ⟨.hbm, 114, rfl⟩
abbrev main_cst_8 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1_S1x1_1 : S1.BroadcastsInDim S1x1 (![1] : Fin 1 → Fin S1x1.rank)
  bcast_S1x1_S1x4096_0_1 : S1x1.BroadcastsInDim S1x4096 (![0, 1] : Fin 2 → Fin S1x4096.rank)
  gather_S256_S4096x4096x1_S4096x4096_n_0_n_n_0_2_1_wf : GatherDims.WF S256 S4096x4096x1 S4096x4096 [] [0] [] [0] [] 2 ![1]
  gather_S256_S4096x1_S4096_n_0_n_n_0_1_1_wf : GatherDims.WF S256 S4096x1 S4096 [] [0] [] [0] [] 1 ![1]
  dot_S1x4096_S4096x4096_S1x4096_1_0_0_1_n_n_wf : DotDims.WF S1x4096 S4096x4096 S1x4096 [1] [0] [0] [1] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def gather_S256_S4096x1_S4096_n_0_n_n_0_1_1 : GatherDims S256 S4096x1 S4096 where
  offsetDims := []
  collapsedSliceDims := [0]
  operandBatchingDims := []
  startIndicesBatchingDims := []
  startIndexMap := [0]
  indexVectorDim := 1
  sliceSizes := ![1]
  wf := gather_S256_S4096x1_S4096_n_0_n_n_0_1_1_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.LibCompareBit.lean ====
/-
  A comparison's bit as a float, at the ideal instance.

  A float comparison yields a one-bit word, and a program turns that word into a float in one of two ways: on the
  host the one-bit word is converted as an unsigned integer (a convert from i1 to a float type); in a kernel it is
  zero-extended to 32 bits and the result converted as a signed integer (an extension followed by a signed
  conversion). At the ideal instance both are the extended real 1 when the comparison holds and 0 when it does not
  (`cmpBit`), for every predicate and every float type: a one-bit word is 0 or 1, and zero-extending either to 32
  bits leaves a nonnegative word whose signed and unsigned readings agree.
-/
import Idealize.ShloMosaic.PureOps.Ideal
import Idealize.ShloMosaic.PureOps.Ideal.Laws

noncomputable section

namespace Idealize.ShloMosaic.CompareBit

open Idealize.ShloMosaic

/-- The bit of the comparison p u v as the extended real 1 or 0: the comparison's one-bit word read unsigned. -/
def cmpBit (p : CmpFPredicate) (u v : EReal) : EReal := (((Ideal.cmp p u v).toNat : ℝ) : EReal)

/-- A one-bit word zero-extended to 32 bits and read signed is the word read unsigned. -/
theorem bit_signed_eq (b : BitVec 1) : ((((b.setWidth 32).toInt : ℤ) : ℝ) : EReal) = (((b.toNat : ℕ) : ℝ) : EReal) := by
  have h : (b.setWidth 32).toInt = ((b.toNat : ℕ) : ℤ) := by
    rcases BitVec.eq_zero_or_eq_one b with rfl | rfl <;> decide
  rw [h, Int.cast_natCast]

/-- A kernel's spelling of the bit: compare, zero-extend to 32 bits, convert as a signed integer. -/
theorem signed {φ ψ : FTy} (p : CmpFPredicate) (u v : EReal) :
    FloatOps.sitofp (F := Ideal) φ ((FloatOps.cmpf (F := Ideal) (φ := ψ) p u v).setWidth 32) = cmpBit p u v :=
  bit_signed_eq _

/-- The host's spelling of the bit: compare, convert the one-bit word as an unsigned integer. -/
theorem unsigned {φ ψ : FTy} (p : CmpFPredicate) (u v : EReal) :
    FloatOps.uitofp (F := Ideal) φ (FloatOps.cmpf (F := Ideal) (φ := ψ) p u v) = cmpBit p u v := rfl

end Idealize.ShloMosaic.CompareBit

end
-- ==== Proof.Spec.lean ====
/-
  The unary linear layer, as one function of its arrays.

  For a row of input bits x[1, 4096], stored weights w[4096, 4096] and bias b[4096] with their comparison
  thresholds tw, tw', tb (each a table entry chosen by an integer index array), an accumulator acc[1, 4096] and a
  bound, output column c is the bit

      [ acc(c) + Σ_k x(k)·[w(c,k) ≥ tw(c,k)] + Σ_k (1 − x(k))·(1 − [w(c,k) ≥ tw'(c,k)]) + [b(c) ≥ tb(c)]  ≥  bound ]

  read on the extended reals, where [u ≥ v] is 1 or 0. The kernel adds the four terms in the order
  ((acc + first sum) + second sum) + bias bit; the reference in the order (acc + (first sum + bias bit)) + second
  sum. Addition of extended reals is commutative and associative with no finiteness condition, so the two orders
  agree for every input (`regroup`). A comparison's bit reaches a float either as the one-bit word read unsigned or
  as the word zero-extended to 32 bits and read signed; both are 0 or 1 (`geBit_signed`, `geBit_unsigned`, over the comparison-bit library file).
-/
import Idealize.ShloMosaic.PureOps.Ideal
import Idealize.ShloMosaic.PureOps.Ideal.Laws
import Idealize.ShloMosaic.Lib.ValueIdx
import proofs.«147677_j24515673326112_1_alg».proof.Proof.LibCompareBit

noncomputable section

open scoped BigOperators

namespace Cert.UnaryLinear

open Idealize.ShloMosaic Idealize.ShloMosaic.ValueIdx Idealize.ShloMosaic.CompareBit

/-- A 1 by 4096 row, the 4096 by 4096 weight shape, a 4096 vector, a single entry. -/
abbrev Row : Shape := ⟨2, ![1, 4096]⟩
abbrev Sq : Shape := ⟨2, ![4096, 4096]⟩
abbrev Vec4096 : Shape := ⟨1, ![4096]⟩
abbrev Single : Shape := ⟨1, ![1]⟩

/-- The float 1.0 as an extended real (its word is kept, never evaluated: both programs spell the same word). -/
abbrev one : EReal := Ideal.ofBits .f32 0x3F800000#32

/-- The bit of u ≥ v as the extended real 1 or 0. -/
def geBit (u v : EReal) : EReal := cmpBit .oge u v

/-- The kernel's spelling of the bit of u ≥ v: compare, zero-extend, convert as a signed integer. -/
theorem geBit_signed (u v : EReal) :
    FloatOps.sitofp (F := Ideal) .f32 ((FloatOps.cmpf (F := Ideal) (φ := .f32) .oge u v).setWidth 32) = geBit u v :=
  CompareBit.signed .oge u v

/-- The reference's spelling: compare, convert the one-bit word as an unsigned integer. -/
theorem geBit_unsigned (u v : EReal) :
    FloatOps.uitofp (F := Ideal) .f32 (FloatOps.cmpf (F := Ideal) (φ := .f32) .oge u v) = geBit u v := rfl

/-- Output column c (in row p, the only row): the bias b and its threshold tb are given per column, the bound as
    one number. -/
def column (x : Row.Idx → EReal) (w tw tw' : Sq.Idx → EReal) (b tb : Fin 4096 → EReal) (acc : Row.Idx → EReal)
    (bound : EReal) (p : Fin 1) (c : Fin 4096) : EReal :=
  geBit (((acc (ix2 p c) + ∑ k : Fin 4096, x (ix2 p k) * geBit (w (ix2 c k)) (tw (ix2 c k)))
      + ∑ k : Fin 4096, (one - x (ix2 p k)) * (one - geBit (w (ix2 c k)) (tw' (ix2 c k))))
      + geBit (b c) (tb c)) bound

/-- The layer's output array. -/
def layer (x : Row.Idx → EReal) (w tw tw' : Sq.Idx → EReal) (b tb : Fin 4096 → EReal) (acc : Row.Idx → EReal)
    (bound : EReal) : Row.Idx → EReal :=
  fun j => column x w tw tw' b tb acc bound (j 0) (j 1)

theorem layer_apply (x : Row.Idx → EReal) (w tw tw' : Sq.Idx → EReal) (b tb : Fin 4096 → EReal) (acc : Row.Idx → EReal)
    (bound : EReal) (p : Fin 1) (c : Fin 4096) :
    layer x w tw tw' b tb acc bound (ix2 p c) = column x w tw tw' b tb acc bound p c := rfl

/-- The reference's order of the four terms is the kernel's: commutativity and associativity of + alone. -/
theorem regroup (a s₁ s₂ b : EReal) : (a + (s₁ + b)) + s₂ = ((a + s₁) + s₂) + b := by
  rw [← add_assoc, add_right_comm]

/-! ## The thresholds: a table entry chosen by an integer index

Both programs compute each threshold array on the host by the same chain, `rng[idx mod 256]` as jax lowers it:
the floor-remainder by 256 (a truncating remainder corrected where its sign differs from the divisor's, the divisor
guarded against zero), the wrap of a negative index by +256, and a gather from the 256-entry table. The chain is
named here once and never opened: the two programs apply the same function to the same arrays. -/

/-- The 256-entry table's shape, the scalar shape, and the index arrays' shapes with their trailing unit axis. -/
abbrev Table : Shape := ⟨1, ![256]⟩
abbrev Nil : Shape := ⟨0, ![]⟩
abbrev SqIdx : Shape := ⟨3, ![4096, 4096, 1]⟩
abbrev ColIdx : Shape := ⟨2, ![4096, 1]⟩

theorem bc_sq : Nil.BroadcastsInDim Sq (![] : Fin 0 → Fin Sq.rank) := by decide
theorem bc_vec : Nil.BroadcastsInDim Vec4096 (![] : Fin 0 → Fin Vec4096.rank) := by decide
theorem bc_sq_idx : Sq.BroadcastsInDim SqIdx (![0, 1] : Fin 2 → Fin SqIdx.rank) := by decide
theorem bc_col_idx : Vec4096.BroadcastsInDim ColIdx (![0] : Fin 1 → Fin ColIdx.rank) := by decide
theorem gather_sq_wf : GatherDims.WF Table SqIdx Sq [] [0] [] [0] [] 2 ![1] := by decide
theorem gather_vec_wf : GatherDims.WF Table ColIdx Vec4096 [] [0] [] [0] [] 1 ![1] := by decide

/-- Gather one table entry per index: operand [256], indices [4096, 4096, 1], result [4096, 4096]. -/
def gatherSq : GatherDims Table SqIdx Sq where
  offsetDims := []
  collapsedSliceDims := [0]
  operandBatchingDims := []
  startIndicesBatchingDims := []
  startIndexMap := [0]
  indexVectorDim := 2
  sliceSizes := ![1]
  wf := gather_sq_wf

/-- The same for indices [4096, 1] and result [4096]. -/
def gatherVec : GatherDims Table ColIdx Vec4096 where
  offsetDims := []
  collapsedSliceDims := [0]
  operandBatchingDims := []
  startIndicesBatchingDims := []
  startIndexMap := [0]
  indexVectorDim := 1
  sliceSizes := ![1]
  wf := gather_vec_wf

/-- jnp.remainder(idx, 256) on an integer array of shape s, as jax lowers it. -/
def floorMod {s : Shape} (hb : Nil.BroadcastsInDim s (![] : Fin 0 → Fin s.rank)) (idx : IVec s 32) : IVec s 32 :=
  let n : IVec Nil 32 := constantI Nil 32 256#32
  let d : IVec Nil 32 := select (cmpi .eq n (constantI Nil 32 0#32)) (constantI Nil 32 1#32) n
  let r : IVec s 32 := Host.remsi idx (broadcastInDim s ![] hb d)
  select
    (andi
      (cmpi .ne (cmpi .slt r (broadcastInDim s ![] hb (constantI Nil 32 0#32)))
        (broadcastInDim s ![] hb (cmpi .slt d (constantI Nil 32 0#32))))
      (cmpi .ne r (broadcastInDim s ![] hb (constantI Nil 32 0#32))))
    (addi r (broadcastInDim s ![] hb d)) r

/-- A negative index counts from the end of the 256-entry table. -/
def wrapIndex {s : Shape} (hb : Nil.BroadcastsInDim s (![] : Fin 0 → Fin s.rank)) (y : IVec s 32) : IVec s 32 :=
  select (cmpi .slt y (broadcastInDim s ![] hb (constantI Nil 32 0#32)))
    (addi y (broadcastInDim s ![] hb (constantI Nil 32 256#32))) y

/-- rng[idx mod 256] for a 4096 by 4096 index array. -/
def lookupSq (rng : Table.Idx → EReal) (idx : IVec Sq 32) : Sq.Idx → EReal :=
  Host.gather gatherSq rng (broadcastInDim SqIdx ![0, 1] bc_sq_idx (wrapIndex bc_sq (floorMod bc_sq idx)))

/-- rng[idx mod 256] for a 4096-long index vector. -/
def lookupVec (rng : Table.Idx → EReal) (idx : IVec Vec4096 32) : Vec4096.Idx → EReal :=
  Host.gather gatherVec rng (broadcastInDim ColIdx ![0] bc_col_idx (wrapIndex bc_vec (floorMod bc_vec idx)))

end Cert.UnaryLinear

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.KernelBody.lean ====
/-
  The kernel body's arithmetic at one output lane.

  At a grid point the body loads the whole input row x (1 by 4096), a 256-row block of the weights and of the two
  weight thresholds (256 by 4096 each), and 256-lane blocks of the bias, its threshold and the accumulator, and
  the bound. Lane q of what it stores is the bit of

      ((acc(q) + Σ_k x(k)·[w(q,k) ≥ tw(q,k)]) + Σ_k (1 − x(k))·(1 − [w(q,k) ≥ tw'(q,k)])) + [b(q) ≥ tb(q)]  ≥  bound.

  The two products contract the 4096-long axis of both operands into a zero accumulator, so each is the plain sum
  over k; the changes of float format around them are the identity on extended reals.
-/
import proofs.«147677_j24515673326112_1_alg».proof.Proof.Gen.KernelIdeal.Skeleton
import proofs.«147677_j24515673326112_1_alg».proof.Proof.Spec
import proofs.«147677_j24515673326112_1_alg».proof.Proof.LibMatmulNT
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.UnaryLinear

/-- A product of a 1 by 4096 row with the transpose of a 256 by 4096 block into the zero accumulator, at lane q:
    the sum over the shared 4096-long axis. -/
theorem product_apply (a : FVec Ideal S1x4096 .bf16) (b : FVec Ideal S256x4096 .bf16) (p : Fin 1) (q : Fin 256) :
    matmul dot_S1x4096_S256x4096_S1x256_1_1_0_0_n_n none a b (constant (F := Ideal) S1x256 .f32 0x00000000#32) (ix2 p q)
      = ∑ k : Fin 4096, a (ix2 p k) * b (ix2 q k) :=
  MatmulNT.matmul_zero_apply dot_S1x4096_S256x4096_S1x256_1_1_0_0_n_n none rfl rfl rfl rfl (fun _ _ => rfl) (fun _ _ => rfl)
    a b (ix2 p q)

/-- The bound, a 1 by 1 block broadcast along the 256 lanes, reads its one entry at every lane. -/
theorem bound_apply (v : Vec Ideal S1x1 .f32) (p : Fin 1) (q : Fin 256) :
    broadcastTo S1x256 v broadcasts_S1x1_S1x256 (ix2 p q) = v (ix2 (0 : Fin 1) (0 : Fin 1)) :=
  broadcastTo_apply v broadcasts_S1x1_S1x256 (ix2 p q) (ix2 (0 : Fin 1) (0 : Fin 1)) (fun a => match a with
    | ⟨0, _⟩ => rfl
    | ⟨1, _⟩ => rfl)

/-- Lane q of the body's stored value, from its eight loaded blocks. -/
theorem payload_apply (v0 : Vec Ideal S1x4096 .f32) (v1 v2 v4 : Vec Ideal S256x4096 .f32) (v22 v24 v29 : Vec Ideal S1x256 .f32)
    (v33 : Vec Ideal S1x1 .f32) (p : Fin 1) (q : Fin 256) :
    k0_pay1 (F := Ideal) v0 v1 v2 v4 v22 v24 v29 v33 (ix2 p q)
      = geBit (((v29 (ix2 p q) + ∑ k : Fin 4096, v0 (ix2 p k) * geBit (v1 (ix2 q k)) (v2 (ix2 q k)))
          + ∑ k : Fin 4096, (one - v0 (ix2 p k)) * (one - geBit (v1 (ix2 q k)) (v4 (ix2 q k))))
          + geBit (v22 (ix2 p q)) (v24 (ix2 p q))) (v33 (ix2 (0 : Fin 1) (0 : Fin 1))) := by
  unfold k0_pay1
  simp only [shapeCast_self, sitofp_apply, extui_apply, cmpf_apply, addf_apply]
  rw [product_apply, product_apply, bound_apply]
  simp only [truncf_apply, sitofp_apply, extui_apply, cmpf_apply, subf_apply, broadcast_apply, geBit_signed]
  rfl

end Cert.KernelIdeal.Body

end
-- ==== Proof.KernelHost.lean ====
/-
  The arrays the kernel's windows stage, as the region finds them.

  Before the one region the kernel's @main computes on the host the three threshold arrays by the shared lookup
  chain (the weight thresholds 4096 by 4096, the bias threshold reshaped to a 1 by 4096 row) and reshapes the bias
  to a 1 by 4096 row and the bound to a 1 by 1 array. The other four windows stage argument arrays untouched.
-/
import proofs.«147677_j24515673326112_1_alg».proof.Proof.Gen.KernelIdeal.Frame
import proofs.«147677_j24515673326112_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem
  Idealize.ShloMosaic.StableHlo Cert.UnaryLinear

variable (m : (ℓ : Loc nD τ sig) → Buf (Elt Ideal) ℓ)

set_option maxHeartbeats 2000000 in
/-- Window 2's array: the weight thresholds rng[idx mod 256]. -/
theorem weight_thresholds (c : Dev nD) :
    (V m c main_v7 : S4096x4096.Idx → EReal)
      = lookupSq (m ((c : Thread nD τ).loc main_arg3)) (m ((c : Thread nD τ).loc main_arg6)) := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 2000000 in
/-- Window 3's array: the inverse-path weight thresholds. -/
theorem inverse_thresholds (c : Dev nD) :
    (V m c main_v15 : S4096x4096.Idx → EReal)
      = lookupSq (m ((c : Thread nD τ).loc main_arg3)) (m ((c : Thread nD τ).loc main_arg8)) := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 2000000 in
/-- Window 5's array: the bias thresholds as a 1 by 4096 row. -/
theorem bias_thresholds (c : Dev nD) :
    (V m c main_v24 : S1x4096.Idx → EReal)
      = shapeCast S1x4096 (lookupVec (m ((c : Thread nD τ).loc main_arg3)) (m ((c : Thread nD τ).loc main_arg7)))
          shapeCasts_S4096_S1x4096 := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 2000000 in
/-- Window 4's array: the bias as a 1 by 4096 row. -/
theorem bias_row (c : Dev nD) :
    (V m c main_v25 : S1x4096.Idx → EReal)
      = shapeCast S1x4096 (m ((c : Thread nD τ).loc main_arg2) : S4096.Idx → EReal) shapeCasts_S4096_S1x4096 := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 2000000 in
/-- Window 7's array: the bound as a 1 by 1 array. -/
theorem bound_cell (c : Dev nD) :
    (V m c main_v26 : S1x1.Idx → EReal)
      = shapeCast S1x1 (m ((c : Thread nD τ).loc main_arg5) : S1.Idx → EReal) shapeCasts_S1_S1x1 := by
  dsimp only [Gen.V]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.HostSide

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelValue.lean ====
/-
  The kernel's output array after the run.

  Grid point t of 16 stages the whole input row, rows 256t … 256t + 255 of the weights and of the two weight
  threshold arrays, and columns 256t … 256t + 255 of the bias row, its threshold row and the accumulator, and writes
  back columns 256t … 256t + 255 of the output. What it writes is the layer's formula at those columns
  (`point_block`, `written_block`), the 16 blocks tile the 4096 columns (`every_column_written`), so the output array
  ends holding the layer of the arrays the region found (`output_array`), which the host side identifies with the
  arguments, the shared lookup chain of the index arrays, and the bias and bound read through their reshapes.
-/
import proofs.«147677_j24515673326112_1_alg».proof.Proof.Gen.KernelIdeal.Value
import proofs.«147677_j24515673326112_1_alg».proof.Proof.KernelBody
import proofs.«147677_j24515673326112_1_alg».proof.Proof.KernelHost
import proofs.«147677_j24515673326112_1_alg».proof.Proof.LibVectorAsMatrix
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe
  Idealize.SL.Sem Idealize.ShloMosaic.ValueIdx Cert.UnaryLinear
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the nine windows at grid point t, decided over the 16 points: the input row and the bound
    stay at block (0, 0); the three 4096 by 4096 arrays move down their rows; the three rows and the output move
    along their columns. -/
theorem block_indices : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = 0)
    ∧ (win0_8.index t (0 : Fin 2) = 0 ∧ win0_8.index t (1 : Fin 2) = t.val) :=
  (by decide +kernel : ∀ t : Fin grid0.N, _)

/-- One lane of the body's stored value is the layer's column formula, once each loaded block is known to be the
    part of its array that the column needs: the whole input row, row c of the three square arrays, entry c of the
    three rows, the bound. -/
theorem point_block (x0 : Vec Ideal S1x4096 .f32) (x1 x2 x3 : Vec Ideal S256x4096 .f32) (x4 x5 x6 : Vec Ideal S1x256 .f32)
    (x7 : Vec Ideal S1x1 .f32) (X : S1x4096.Idx → EReal) (W TW TW' : S4096x4096.Idx → EReal)
    (B TB ACC : S1x4096.Idx → EReal) (BD : S1x1.Idx → EReal) (p : Fin 1) (q : Fin 256) (p' : Fin 1) (c : Fin 4096)
    (h0 : ∀ k : Fin 4096, x0 (ix2 p k) = X (ix2 p' k))
    (h1 : ∀ k : Fin 4096, x1 (ix2 q k) = W (ix2 c k))
    (h2 : ∀ k : Fin 4096, x2 (ix2 q k) = TW (ix2 c k))
    (h3 : ∀ k : Fin 4096, x3 (ix2 q k) = TW' (ix2 c k))
    (h4 : x4 (ix2 p q) = B (ix2 (0 : Fin 1) c)) (h5 : x5 (ix2 p q) = TB (ix2 (0 : Fin 1) c))
    (h6 : x6 (ix2 p q) = ACC (ix2 p' c)) (h7 : x7 (ix2 (0 : Fin 1) (0 : Fin 1)) = BD (ix2 (0 : Fin 1) (0 : Fin 1))) :
    k0_pay1 (F := Ideal) x0 x1 x2 x3 x4 x5 x6 x7 (ix2 p q)
      = column X W TW TW' (fun j => B (ix2 (0 : Fin 1) j)) (fun j => TB (ix2 (0 : Fin 1) j)) ACC
          (BD (ix2 (0 : Fin 1) (0 : Fin 1))) p' c := by
  rw [Body.payload_apply, h4, h5, h6, h7]
  unfold column
  simp only [h0, h1, h2, h3]

/-- A block of 256 output lanes is what point t writes back of an array G as soon as each lane is G at the column the
    block's rectangle gives it (stated for any block, so that nothing of the body's arithmetic is looked into). -/
theorem block_of_lanes (t : Fin cfg0.N) (P : Vec Ideal S1x256 .f32) (G : S1x4096.Idx → EReal)
    (h : ∀ (p : Fin 1) (q : Fin 256), P (ix2 p q) = G (((cfg0.win 8).blk t).view.emb (ix2 p q))) :
    (cfg0.win 8).cut (grid0.coords t) P = ((cfg0.win 8).blk t).view.read (Elt Ideal) G := by
  funext j
  obtain ⟨p, q, rfl⟩ : ∃ (p : Fin 1) (q : Fin 256), j = ix2 p q := ⟨j 0, j 1, eq_ix2 j⟩
  exact h p q

/-! ## Each window's block at point t, read at a coordinate

A block's coordinate on an axis is the window's block index there times the block's extent plus the coordinate inside
the block; the block indices are `block_indices`. -/

/-- Window 0 stages the whole input row. -/
theorem input_row_block (c : Dev nD) (t : Fin cfg0.N) (p : Fin 1) (k : Fin 4096) :
    iblk m c 0 t (ix2 p k) = V m c main_arg0 (ix2 p k) := by
  obtain ⟨⟨a0, a1⟩, -⟩ := block_indices t
  have hp : p.val < 1 := p.isLt
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 1 + 1 * p.val = p.val; rw [a0]; omega
  | ⟨1, _⟩ => show win0_0.index t (1 : Fin 2) * 4096 + 1 * k.val = k.val; rw [a1]; omega

/-- Window 1 stages rows 256t … 256t + 255 of the weights. -/
theorem weight_block (c : Dev nD) (t : Fin cfg0.N) (q : Fin 256) (k : Fin 4096) (hc : 256 * t.val + q.val < 4096) :
    iblk m c 1 t (ix2 q k) = V m c main_arg1 (ix2 (⟨256 * t.val + q.val, hc⟩ : Fin 4096) k) := by
  obtain ⟨-, ⟨a0, a1⟩, -⟩ := block_indices t
  show V m c main_arg1 (((cfg0.win 1).blk t).view.emb (ix2 q k)) = V m c main_arg1 (ix2 (⟨256 * t.val + q.val, hc⟩ : Fin 4096) k)
  refine congrArg (V m c main_arg1) (funext fun a => Fin.ext ?_)
  match a with
  | ⟨0, _⟩ => show win0_1.index t (0 : Fin 2) * 256 + 1 * q.val = 256 * t.val + q.val; rw [a0]; omega
  | ⟨1, _⟩ => show win0_1.index t (1 : Fin 2) * 4096 + 1 * k.val = k.val; rw [a1]; omega

/-- Window 2 stages the same rows of the weight thresholds. -/
theorem threshold_block (c : Dev nD) (t : Fin cfg0.N) (q : Fin 256) (k : Fin 4096) (hc : 256 * t.val + q.val < 4096) :
    iblk m c 2 t (ix2 q k) = V m c main_v7 (ix2 (⟨256 * t.val + q.val, hc⟩ : Fin 4096) k) := by
  obtain ⟨-, -, ⟨a0, a1⟩, -⟩ := block_indices t
  show V m c main_v7 (((cfg0.win 2).blk t).view.emb (ix2 q k)) = V m c main_v7 (ix2 (⟨256 * t.val + q.val, hc⟩ : Fin 4096) k)
  refine congrArg (V m c main_v7) (funext fun a => Fin.ext ?_)
  match a with
  | ⟨0, _⟩ => show win0_2.index t (0 : Fin 2) * 256 + 1 * q.val = 256 * t.val + q.val; rw [a0]; omega
  | ⟨1, _⟩ => show win0_2.index t (1 : Fin 2) * 4096 + 1 * k.val = k.val; rw [a1]; omega

/-- Window 3 stages the same rows of the inverse-path thresholds. -/
theorem inverse_threshold_block (c : Dev nD) (t : Fin cfg0.N) (q : Fin 256) (k : Fin 4096) (hc : 256 * t.val + q.val < 4096) :
    iblk m c 3 t (ix2 q k) = V m c main_v15 (ix2 (⟨256 * t.val + q.val, hc⟩ : Fin 4096) k) := by
  obtain ⟨-, -, -, ⟨a0, a1⟩, -⟩ := block_indices t
  show V m c main_v15 (((cfg0.win 3).blk t).view.emb (ix2 q k)) = V m c main_v15 (ix2 (⟨256 * t.val + q.val, hc⟩ : Fin 4096) k)
  refine congrArg (V m c main_v15) (funext fun a => Fin.ext ?_)
  match a with
  | ⟨0, _⟩ => show win0_3.index t (0 : Fin 2) * 256 + 1 * q.val = 256 * t.val + q.val; rw [a0]; omega
  | ⟨1, _⟩ => show win0_3.index t (1 : Fin 2) * 4096 + 1 * k.val = k.val; rw [a1]; omega

/-- Window 4 stages columns 256t … 256t + 255 of the bias row. -/
theorem bias_block (c : Dev nD) (t : Fin cfg0.N) (p : Fin 1) (q : Fin 256) (hc : 256 * t.val + q.val < 4096) :
    iblk m c 4 t (ix2 p q) = V m c main_v25 (ix2 (0 : Fin 1) (⟨256 * t.val + q.val, hc⟩ : Fin 4096)) := by
  obtain ⟨-, -, -, -, ⟨a0, a1⟩, -⟩ := block_indices t
  have hp : p.val < 1 := p.isLt
  show V m c main_v25 (((cfg0.win 4).blk t).view.emb (ix2 p q)) = V m c main_v25 (ix2 (0 : Fin 1) (⟨256 * t.val + q.val, hc⟩ : Fin 4096))
  refine congrArg (V m c main_v25) (funext fun a => Fin.ext ?_)
  match a with
  | ⟨0, _⟩ => show win0_4.index t (0 : Fin 2) * 1 + 1 * p.val = 0; rw [a0]; omega
  | ⟨1, _⟩ => show win0_4.index t (1 : Fin 2) * 256 + 1 * q.val = 256 * t.val + q.val; rw [a1]; omega

/-- Window 5 stages the same columns of the bias thresholds' row. -/
theorem bias_threshold_block (c : Dev nD) (t : Fin cfg0.N) (p : Fin 1) (q : Fin 256) (hc : 256 * t.val + q.val < 4096) :
    iblk m c 5 t (ix2 p q) = V m c main_v24 (ix2 (0 : Fin 1) (⟨256 * t.val + q.val, hc⟩ : Fin 4096)) := by
  obtain ⟨-, -, -, -, -, ⟨a0, a1⟩, -⟩ := block_indices t
  have hp : p.val < 1 := p.isLt
  show V m c main_v24 (((cfg0.win 5).blk t).view.emb (ix2 p q)) = V m c main_v24 (ix2 (0 : Fin 1) (⟨256 * t.val + q.val, hc⟩ : Fin 4096))
  refine congrArg (V m c main_v24) (funext fun a => Fin.ext ?_)
  match a with
  | ⟨0, _⟩ => show win0_5.index t (0 : Fin 2) * 1 + 1 * p.val = 0; rw [a0]; omega
  | ⟨1, _⟩ => show win0_5.index t (1 : Fin 2) * 256 + 1 * q.val = 256 * t.val + q.val; rw [a1]; omega

/-- Window 6 stages the same columns of the accumulator. -/
theorem accumulator_block (c : Dev nD) (t : Fin cfg0.N) (p : Fin 1) (q : Fin 256) (hc : 256 * t.val + q.val < 4096) :
    iblk m c 6 t (ix2 p q) = V m c main_arg4 (ix2 p (⟨256 * t.val + q.val, hc⟩ : Fin 4096)) := by
  obtain ⟨-, -, -, -, -, -, ⟨a0, a1⟩, -⟩ := block_indices t
  have hp : p.val < 1 := p.isLt
  show V m c main_arg4 (((cfg0.win 6).blk t).view.emb (ix2 p q)) = V m c main_arg4 (ix2 p (⟨256 * t.val + q.val, hc⟩ : Fin 4096))
  refine congrArg (V m c main_arg4) (funext fun a => Fin.ext ?_)
  match a with
  | ⟨0, _⟩ => show win0_6.index t (0 : Fin 2) * 1 + 1 * p.val = p.val; rw [a0]; omega
  | ⟨1, _⟩ => show win0_6.index t (1 : Fin 2) * 256 + 1 * q.val = 256 * t.val + q.val; rw [a1]; omega

/-- Window 7 stages the bound's one cell. -/
theorem bound_block (c : Dev nD) (t : Fin cfg0.N) :
    iblk m c 7 t (ix2 (0 : Fin 1) (0 : Fin 1)) = V m c main_v26 (ix2 (0 : Fin 1) (0 : Fin 1)) := by
  obtain ⟨-, -, -, -, -, -, -, ⟨a0, a1⟩, -⟩ := block_indices t
  show V m c main_v26 (((cfg0.win 7).blk t).view.emb (ix2 (0 : Fin 1) (0 : Fin 1))) = V m c main_v26 (ix2 (0 : Fin 1) (0 : Fin 1))
  refine congrArg (V m c main_v26) (funext fun a => Fin.ext ?_)
  match a with
  | ⟨0, _⟩ => show win0_7.index t (0 : Fin 2) * 1 + 1 * 0 = 0; rw [a0]
  | ⟨1, _⟩ => show win0_7.index t (1 : Fin 2) * 1 + 1 * 0 = 0; rw [a1]

/-- Lane (p, q) of output window 8's block at point t is column 256t + q of the output array. -/
theorem output_lane (t : Fin cfg0.N) (p : Fin 1) (q : Fin 256) (hc : 256 * t.val + q.val < 4096) :
    ((cfg0.win 8).blk t).view.emb (ix2 p q) = (ix2 p (⟨256 * t.val + q.val, hc⟩ : Fin 4096) : S1x4096.Idx) := by
  obtain ⟨-, -, -, -, -, -, -, -, ⟨a0, a1⟩⟩ := block_indices t
  have hp : p.val < 1 := p.isLt
  funext a; apply Fin.ext
  match a with
  | ⟨0, _⟩ => show win0_8.index t (0 : Fin 2) * 1 + 1 * p.val = p.val; rw [a0]; omega
  | ⟨1, _⟩ => show win0_8.index t (1 : Fin 2) * 256 + 1 * q.val = 256 * t.val + q.val; rw [a1]; omega

/-- What grid point t writes back is block t of the layer of the arrays as the region finds them. -/
theorem written_block (c : Dev nD) (t : Fin cfg0.N) :
    (dats m 0 c).flushed 8 t = ((cfg0.win 8).blk t).view.read (Elt Ideal)
      (layer (V m c main_arg0) (V m c main_arg1) (V m c main_v7) (V m c main_v15)
        (fun j => (V m c main_v25 : S1x4096.Idx → EReal) (ix2 (0 : Fin 1) j))
        (fun j => (V m c main_v24 : S1x4096.Idx → EReal) (ix2 (0 : Fin 1) j))
        (V m c main_arg4) ((V m c main_v26 : S1x1.Idx → EReal) (ix2 (0 : Fin 1) (0 : Fin 1)))) := by
  rw [Value.flushed8]
  unfold out0_8
  rw [View.canon_unit_zero zero_offsets]
  simp only [View.ld_unit_zero (S := S1x4096) zero_offsets, View.ld_unit_zero (S := S256x4096) zero_offsets,
    View.ld_unit_zero (S := S1x256) zero_offsets, View.ld_unit_zero (S := S1x1) zero_offsets]
  refine block_of_lanes t _ _ (fun p q => ?_)
  have ht : t.val < 16 := Nat.lt_of_lt_of_eq t.isLt N_0
  have hq : q.val < 256 := q.isLt
  have hc : 256 * t.val + q.val < 4096 := by omega
  rw [output_lane t p q hc, layer_apply]
  exact point_block (iblk m c 0 t) (iblk m c 1 t) (iblk m c 2 t) (iblk m c 3 t) (iblk m c 4 t) (iblk m c 5 t)
    (iblk m c 6 t) (iblk m c 7 t) (V m c main_arg0) (V m c main_arg1) (V m c main_v7) (V m c main_v15) (V m c main_v25)
    (V m c main_v24) (V m c main_arg4) (V m c main_v26) p q p (⟨256 * t.val + q.val, hc⟩ : Fin 4096)
    (fun k => input_row_block m c t p k) (fun k => weight_block m c t q k hc) (fun k => threshold_block m c t q k hc)
    (fun k => inverse_threshold_block m c t q k hc) (bias_block m c t p q hc) (bias_threshold_block m c t p q hc)
    (accumulator_block m c t p q hc) (bound_block m c t)

/-- An index of the output array is in point t's block iff each coordinate is in the block's range on its axis. -/
theorem mem_block (t : Fin cfg0.N) (i : S1x4096.Idx) :
    i ∈ ((cfg0.win 8).blk t).view.set ↔ ∀ a : Fin 2, win0_8.index t a * S1x256.size a ≤ (i a).val
      ∧ (i a).val < win0_8.index t a * S1x256.size a + S1x256.size a := by
  show i ∈ ((View.whole main_v27).slice (win0_8.rect t)).set ↔ _
  rw [View.set_slice_whole, Rect.mem_set_unit]
  exact Iff.rfl

/-- The 16 blocks of 256 columns tile the 4096 columns: column i is written by point i / 256. -/
theorem every_column_written (i : S1x4096.Idx) :
    ∃ t : Fin cfg0.N, (cfg0.win 8).flush t = true ∧ i ∈ ((cfg0.win 8).blk t).view.set := by
  have hi0 : (i 0).val < 1 := (i 0).isLt
  have hi1 : (i 1).val < 4096 := (i 1).isLt
  have hN : cfg0.N = 16 := N_0
  have hlt : (i 1).val / 256 < cfg0.N := by rw [hN]; omega
  obtain ⟨-, -, -, -, -, -, -, -, ⟨a80, a81⟩⟩ := block_indices ⟨(i 1).val / 256, hlt⟩
  refine ⟨⟨(i 1).val / 256, hlt⟩, flush0_8 _, ?_⟩
  rw [mem_block]
  intro a
  match a with
  | ⟨0, _⟩ =>
    show win0_8.index ⟨(i 1).val / 256, hlt⟩ (0 : Fin 2) * 1 ≤ (i 0).val
      ∧ (i 0).val < win0_8.index ⟨(i 1).val / 256, hlt⟩ (0 : Fin 2) * 1 + 1
    rw [a80]; omega
  | ⟨1, _⟩ =>
    show win0_8.index ⟨(i 1).val / 256, hlt⟩ (1 : Fin 2) * 256 ≤ (i 1).val
      ∧ (i 1).val < win0_8.index ⟨(i 1).val / 256, hlt⟩ (1 : Fin 2) * 256 + 256
    rw [a81]
    show (i 1).val / 256 * 256 ≤ (i 1).val ∧ (i 1).val < (i 1).val / 256 * 256 + 256
    omega

/-- The output array after the run: the layer of the arguments, with the thresholds by the shared lookup chain, the
    bias read through its reshape to a row and the bound through its reshape to a 1 by 1 array. -/
theorem output_array (c : Dev nD) :
    (dats m 0 c).arrAt 8 cfg0.N
      = layer (m ((c : Thread nD τ).loc main_arg0)) (m ((c : Thread nD τ).loc main_arg1))
          (lookupSq (m ((c : Thread nD τ).loc main_arg3)) (m ((c : Thread nD τ).loc main_arg6)))
          (lookupSq (m ((c : Thread nD τ).loc main_arg3)) (m ((c : Thread nD τ).loc main_arg8)))
          (fun j => (m ((c : Thread nD τ).loc main_arg2) : S4096.Idx → EReal) (ix1 j))
          (fun j => lookupVec (m ((c : Thread nD τ).loc main_arg3)) (m ((c : Thread nD τ).loc main_arg7)) (ix1 j))
          (m ((c : Thread nD τ).loc main_arg4))
          ((m ((c : Thread nD τ).loc main_arg5) : S1.Idx → EReal) (ix1 (0 : Fin 1))) := by
  rw [(dats m 0 c).arrAt_eq_of_cover 8 _ (fun t _ => written_block m c t) every_column_written]
  rw [V_main_arg0, V_main_arg1, V_main_arg4, HostSide.weight_thresholds, HostSide.inverse_thresholds,
    HostSide.bias_row, HostSide.bias_thresholds, HostSide.bound_cell]
  simp only [VectorAsMatrix.row_apply]

/-- The kernel's run, read: the output array at the layer of the arguments, the arguments unchanged. -/
theorem run : θ_run defs (onTc (τ := τ) (main (F := Ideal))) ⟨m, fun _ => 0, ρ⟩ fun r => ∀ c : Dev nD,
      r.2.mem ((c : Thread nD τ).loc main_v27)
        = layer (m ((c : Thread nD τ).loc main_arg0)) (m ((c : Thread nD τ).loc main_arg1))
            (lookupSq (m ((c : Thread nD τ).loc main_arg3)) (m ((c : Thread nD τ).loc main_arg6)))
            (lookupSq (m ((c : Thread nD τ).loc main_arg3)) (m ((c : Thread nD τ).loc main_arg8)))
            (fun j => (m ((c : Thread nD τ).loc main_arg2) : S4096.Idx → EReal) (ix1 j))
            (fun j => lookupVec (m ((c : Thread nD τ).loc main_arg3)) (m ((c : Thread nD τ).loc main_arg7)) (ix1 j))
            (m ((c : Thread nD τ).loc main_arg4))
            ((m ((c : Thread nD τ).loc main_arg5) : S1.Idx → EReal) (ix1 (0 : Fin 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (output_array m c), (h c).2⟩) (Value.run_blocks m ρ)

end Cert.KernelIdeal.Whole

end
-- ==== Proof.RefLine.lean ====
/-
  The reference program read as one straight line.

  The reference's @main computes, on the host, the three threshold arrays rng[idx mod 256] (a gather through
  jnp's remainder, which jax outlines as a function that itself calls jnp.where), the three comparison bits
  (weights, inverse weights, bias), the two products x · Wᵀ and (1 − x) · W'ᵀ, their sum with the accumulator
  and the bias bit, and the final comparison against the bound. A call of an outlined function executes the
  callee's operations on the call's own buffers, so @main is the list below: the callee's operations stand
  at each call site over that call's record of buffers. Every weakly fair execution of a straight line
  terminates with each buffer at the fold of the operations' results over the launch contents.
-/
import proofs.«147677_j24515673326112_1_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 117 host operations in order: 1 + 21 (remainder of the weight indices) + 11, 1 + 21 (remainder of
    the bias indices) + 15, 1 + 21 (remainder of the inverse-weight indices) + 25. -/
abbrev ops : List (HloOp τ sig (Elt F)) :=
  [ nullary main_c (constantI S_ 32 256#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x4096 ![] bcast_S_S4096x4096),
    TRef.binary (.of main_arg6) main_call0.v3 main_call0.v4 Host.remsi,
    TRef.nullary main_call0.c_1 (constantI S_ 32 0#32),
    TRef.unary main_call0.c_1 main_call0.v5 (broadcastInDim S4096x4096 ![] bcast_S_S4096x4096),
    TRef.binary main_call0.v4 main_call0.v5 main_call0.v6 (cmpi .ne),
    TRef.nullary main_call0.c_2 (constantI S_ 32 0#32),
    TRef.unary main_call0.c_2 main_call0.v7 (broadcastInDim S4096x4096 ![] bcast_S_S4096x4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x4096 ![] bcast_S_S4096x4096),
    TRef.binary main_call0.v8 main_call0.v10 main_call0.v11 (cmpi .ne),
    TRef.binary main_call0.v11 main_call0.v6 main_call0.v12 andi,
    TRef.unary main_call0.call0.v0 main_call0.v13 (broadcastInDim S4096x4096 ![] bcast_S_S4096x4096),
    TRef.binary main_call0.v4 main_call0.v13 main_call0.v14 addi,
    TRef.ternary main_call0.v12 main_call0.v14 main_call0.v4 main_call0.v15 select,
    nullary main_c_0 (constantI S_ 32 0#32),
    unary main_c_0 main_v1 (broadcastInDim S4096x4096 ![] bcast_S_S4096x4096),
    binary main_v0 main_v1 main_v2 (cmpi .slt),
    nullary main_c_1 (constantI S_ 32 256#32),
    unary main_c_1 main_v3 (broadcastInDim S4096x4096 ![] bcast_S_S4096x4096),
    binary main_v0 main_v3 main_v4 addi,
    ternary main_v2 main_v4 main_v0 main_v5 select,
    unary main_v5 main_v6 (broadcastInDim S4096x4096x1 ![0, 1] bcast_S4096x4096_S4096x4096x1_0_1),
    binary main_arg3 main_v6 main_v7 (fun x i => Host.gather gather_S256_S4096x4096x1_S4096x4096_n_0_n_n_0_2_1 x i),
    binary main_arg1 main_v7 main_v8 (cmpf .oge),
    unary main_v8 main_v9 (uitofp .f32),
    nullary main_c_2 (constantI S_ 32 256#32),
    TRef.unary (.of main_c_2) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S4096 ![] bcast_S_S4096),
    TRef.binary (.of main_arg7) main_call1.v3 main_call1.v4 Host.remsi,
    TRef.nullary main_call1.c_1 (constantI S_ 32 0#32),
    TRef.unary main_call1.c_1 main_call1.v5 (broadcastInDim S4096 ![] bcast_S_S4096),
    TRef.binary main_call1.v4 main_call1.v5 main_call1.v6 (cmpi .ne),
    TRef.nullary main_call1.c_2 (constantI S_ 32 0#32),
    TRef.unary main_call1.c_2 main_call1.v7 (broadcastInDim S4096 ![] bcast_S_S4096),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S4096 ![] bcast_S_S4096),
    TRef.binary main_call1.v8 main_call1.v10 main_call1.v11 (cmpi .ne),
    TRef.binary main_call1.v11 main_call1.v6 main_call1.v12 andi,
    TRef.unary main_call1.call0.v0 main_call1.v13 (broadcastInDim S4096 ![] bcast_S_S4096),
    TRef.binary main_call1.v4 main_call1.v13 main_call1.v14 addi,
    TRef.ternary main_call1.v12 main_call1.v14 main_call1.v4 main_call1.v15 select,
    nullary main_c_3 (constantI S_ 32 0#32),
    unary main_c_3 main_v11 (broadcastInDim S4096 ![] bcast_S_S4096),
    binary main_v10 main_v11 main_v12 (cmpi .slt),
    nullary main_c_4 (constantI S_ 32 256#32),
    unary main_c_4 main_v13 (broadcastInDim S4096 ![] bcast_S_S4096),
    binary main_v10 main_v13 main_v14 addi,
    ternary main_v12 main_v14 main_v10 main_v15 select,
    unary main_v15 main_v16 (broadcastInDim S4096x1 ![0] bcast_S4096_S4096x1_0),
    binary main_arg3 main_v16 main_v17 (fun x i => Host.gather gather_S256_S4096x1_S4096_n_0_n_n_0_1_1 x i),
    binary main_arg2 main_v17 main_v18 (cmpf .oge),
    unary main_v18 main_v19 (uitofp .f32),
    unary main_v9 main_v20 (transpose S4096x4096 [1, 0] · transposes_S4096x4096_S4096x4096_1_0),
    binary main_arg0 main_v20 main_v21 (fun l r => Host.dotGeneral dot_S1x4096_S4096x4096_S1x4096_1_0_0_1_n_n none l r),
    unary main_v19 main_v22 (broadcastInDim S1x4096 ![1] bcast_S4096_S1x4096_1),
    binary main_v21 main_v22 main_v23 addf,
    nullary main_c_5 (constantI S_ 32 256#32),
    TRef.unary (.of main_c_5) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S4096x4096 ![] bcast_S_S4096x4096),
    TRef.binary (.of main_arg8) main_call2.v3 main_call2.v4 Host.remsi,
    TRef.nullary main_call2.c_1 (constantI S_ 32 0#32),
    TRef.unary main_call2.c_1 main_call2.v5 (broadcastInDim S4096x4096 ![] bcast_S_S4096x4096),
    TRef.binary main_call2.v4 main_call2.v5 main_call2.v6 (cmpi .ne),
    TRef.nullary main_call2.c_2 (constantI S_ 32 0#32),
    TRef.unary main_call2.c_2 main_call2.v7 (broadcastInDim S4096x4096 ![] bcast_S_S4096x4096),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S4096x4096 ![] bcast_S_S4096x4096),
    TRef.binary main_call2.v8 main_call2.v10 main_call2.v11 (cmpi .ne),
    TRef.binary main_call2.v11 main_call2.v6 main_call2.v12 andi,
    TRef.unary main_call2.call0.v0 main_call2.v13 (broadcastInDim S4096x4096 ![] bcast_S_S4096x4096),
    TRef.binary main_call2.v4 main_call2.v13 main_call2.v14 addi,
    TRef.ternary main_call2.v12 main_call2.v14 main_call2.v4 main_call2.v15 select,
    nullary main_c_6 (constantI S_ 32 0#32),
    unary main_c_6 main_v25 (broadcastInDim S4096x4096 ![] bcast_S_S4096x4096),
    binary main_v24 main_v25 main_v26 (cmpi .slt),
    nullary main_c_7 (constantI S_ 32 256#32),
    unary main_c_7 main_v27 (broadcastInDim S4096x4096 ![] bcast_S_S4096x4096),
    binary main_v24 main_v27 main_v28 addi,
    ternary main_v26 main_v28 main_v24 main_v29 select,
    unary main_v29 main_v30 (broadcastInDim S4096x4096x1 ![0, 1] bcast_S4096x4096_S4096x4096x1_0_1),
    binary main_arg3 main_v30 main_v31 (fun x i => Host.gather gather_S256_S4096x4096x1_S4096x4096_n_0_n_n_0_2_1 x i),
    binary main_arg1 main_v31 main_v32 (cmpf .oge),
    unary main_v32 main_v33 (uitofp .f32),
    nullary main_cst (constant S_ .f32 0x3F800000#32),
    unary main_cst main_v34 (broadcastInDim S4096x4096 ![] bcast_S_S4096x4096),
    binary main_v34 main_v33 main_v35 subf,
    nullary main_cst_8 (constant S_ .f32 0x3F800000#32),
    unary main_cst_8 main_v36 (broadcastInDim S1x4096 ![] bcast_S_S1x4096),
    binary main_v36 main_arg0 main_v37 subf,
    unary main_v35 main_v38 (transpose S4096x4096 [1, 0] · transposes_S4096x4096_S4096x4096_1_0),
    binary main_v37 main_v38 main_v39 (fun l r => Host.dotGeneral dot_S1x4096_S4096x4096_S1x4096_1_0_0_1_n_n none l r),
    binary main_arg4 main_v23 main_v40 addf,
    binary main_v40 main_v39 main_v41 addf,
    unary main_arg5 main_v42 (broadcastInDim S1x1 ![1] bcast_S1_S1x1_1),
    unary main_v42 main_v43 (broadcastInDim S1x4096 ![0, 1] bcast_S1x1_S1x4096_0_1),
    binary main_v41 main_v43 main_v44 (cmpf .oge),
    unary main_v44 main_v45 (uitofp .f32) ]

/-- @main is that straight line: each callee's definition unfolds at its call and the call's record at its
    fields, and sequencing re-associates by computation, so the two sides are one chain of host steps. The
    equation is checked by definitional unfolding, one operation at a time. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub .., unary_bufs_sub ..,
    nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub .., unary_bufs_sub .., unary_bufs_sub .., binary_bufs_sub .., unary_bufs_sub .., binary_bufs_sub ..,
    nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub .., unary_bufs_sub ..,
    nullary_bufs_sub .., unary_bufs_sub .., binary_bufs_sub .., nullary_bufs_sub .., unary_bufs_sub .., binary_bufs_sub ..,
    unary_bufs_sub .., binary_bufs_sub .., binary_bufs_sub .., binary_bufs_sub .., unary_bufs_sub .., unary_bufs_sub .., binary_bufs_sub .., unary_bufs_sub ..⟩

/-- Every weakly fair execution of the reference terminates, and every final state has each TensorCore buffer
    at the fold of the 117 operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibHostRows.lean ====
/-
  Three host-side forms read at an index, at the ideal instance or for any element type.

  The host's sum along the rows of an a by b array, started from the zero word, is at row r the plain sum of the
  row's b entries on the extended reals (the zero adds nothing; no finiteness is needed). A square array transposed
  by the permutation [1, 0] reads, at (k, c), the array at (c, k). A length-b vector reshaped to a 1 by b row reads,
  at (0, j), the vector at j. Together they are what a dense layer x·Wᵀ + b with the weight stored [out, in], and a
  mean along the last axis, need on the host side.
-/
import Idealize.ShloMosaic.PureOps.Ideal.Laws
import Idealize.ShloMosaic.Lib.Pipeline.Value
import Idealize.ShloMosaic.Lib.ValueIdx

noncomputable section

namespace Idealize.ShloMosaic.HostRows

open Idealize.ShloMosaic Idealize.ShloMosaic.ValueIdx Idealize.ShloMosaic.Pipeline

/-- The index a reduction along axis 1 puts back: row r, reduced coordinate k, is (r, k). -/
theorem lift_row {a b : ℕ} (h : (⟨2, ![a, b]⟩ : Shape).Reduces [(1 : Fin 2)] ⟨1, ![a]⟩) (r : Fin a) (k : Fin b) :
    h.lift (ix1 r) k = ix2 r k := by
  funext ax
  apply Fin.ext
  match ax with
  | ⟨0, _⟩ => rfl
  | ⟨1, _⟩ => rfl

/-- The host's sum along the rows of an a by b array from an initial value that is the zero word: row r's sum. -/
theorem host_row_sum {a b : ℕ} (x : FVec Ideal (⟨2, ![a, b]⟩ : Shape) .f32) (init : (⟨0, ![]⟩ : Shape).Idx → EReal)
    (h' : (⟨2, ![a, b]⟩ : Shape).ReducesTo [(1 : Fin 2)] ⟨1, ![a]⟩) (hu : 0 < (⟨0, ![]⟩ : Shape).numel)
    (h : (⟨2, ![a, b]⟩ : Shape).Reduces [(1 : Fin 2)] ⟨1, ![a]⟩)
    (hinit : init (Shape.Idx.first hu) = Ideal.ofBits .f32 0x00000000#32) (r : Fin a) :
    Host.reduceAdd (F := Ideal) x init h' hu (ix1 r) = ∑ k : Fin b, x (ix2 r k) := by
  show Ideal.hostReduceAdd h' x (init (Shape.Idx.first hu)) (ix1 r) = _
  rw [Ideal.hostReduceAdd_single h' h, hinit, Ideal.ofBits_zero_f32, zero_add]
  exact Finset.sum_congr rfl fun k _ => congrArg x (lift_row h r k)

/-- A transposed square array at (k, c) is the array at (c, k). -/
theorem transpose_sq_apply {α : Type} {n : ℕ} (W : (⟨2, ![n, n]⟩ : Shape).Idx → α)
    (hT : (⟨2, ![n, n]⟩ : Shape).Transposes [(1 : Fin 2), 0] ⟨2, ![n, n]⟩) (k c : Fin n) :
    transpose (⟨2, ![n, n]⟩ : Shape) [(1 : Fin 2), 0] W hT (ix2 k c) = W (ix2 c k) :=
  transpose_apply [(1 : Fin 2), 0] W hT (ix2 k c) (ix2 c k) (fun b => match b with
    | ⟨0, _⟩ => rfl
    | ⟨1, _⟩ => rfl)

/-- A length-b vector reshaped to a 1 by b row reads, at (0, j), the vector at j. -/
theorem reshape_row_apply {α : Type} {b : ℕ} (x : (⟨1, ![b]⟩ : Shape).Idx → α)
    (h : (⟨1, ![b]⟩ : Shape).ShapeCasts ⟨2, ![1, b]⟩) (j : Fin b) :
    shapeCast (⟨2, ![1, b]⟩ : Shape) x h (ix2 (0 : Fin 1) j) = x (ix1 j) :=
  shapeCast_apply x h _ _ (by
    rw [Shape.rowMajor_val_two, Shape.rowMajor_val_one]
    show j.val = 0 * b + j.val
    omega)

end Idealize.ShloMosaic.HostRows

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.RefValue.lean ====
/-
  What the reference's result buffer holds, as one composition.

  The straight line's result buffer holds the composition of its operations (`out`): the three threshold arrays are
  the shared lookup chain of the specification applied to the table and the index arrays, and the rest is float
  arithmetic on the host over them and the arguments. No operation writes an argument buffer.
-/
import proofs.«147677_j24515673326112_1_alg».proof.Proof.RefLine
import proofs.«147677_j24515673326112_1_alg».proof.Proof.Spec
import proofs.«147677_j24515673326112_1_alg».proof.Proof.LibMatmulRows
import proofs.«147677_j24515673326112_1_alg».proof.Proof.LibHostRows
import proofs.«147677_j24515673326112_1_alg».proof.Proof.LibHostBroadcast
import Idealize.ShloMosaic.PureOps.Ideal.Laws
import Idealize.ShloMosaic.Lib.Pipeline.Value
import Idealize.ShloMosaic.Lib.ValueIdx

noncomputable section

open scoped BigOperators

namespace Cert.ReferenceIdeal.Result

open Cert.ReferenceIdeal Cert.ReferenceIdeal.Gen Cert.ReferenceIdeal.Line Idealize.ShloMosaic Idealize.ShloMosaic.TcCoe
  Idealize.SL.Sem Idealize.ShloMosaic.StableHlo Idealize.ShloMosaic.ValueIdx Cert.UnaryLinear

/-- The float part of the reference as one composition of its host operations, over the arguments and the three
    threshold arrays. -/
def out (x : FVec Ideal S1x4096 .f32) (w tw tw' : FVec Ideal S4096x4096 .f32) (b tb : FVec Ideal S4096 .f32)
    (acc : FVec Ideal S1x4096 .f32) (bound : FVec Ideal S1 .f32) : FVec Ideal S1x4096 .f32 :=
  uitofp .f32 (cmpf .oge
    (addf
      (addf acc
        (addf
          (Host.dotGeneral (F := Ideal) dot_S1x4096_S4096x4096_S1x4096_1_0_0_1_n_n none x
            (transpose S4096x4096 [1, 0] (uitofp .f32 (cmpf .oge w tw)) transposes_S4096x4096_S4096x4096_1_0))
          (broadcastInDim S1x4096 ![1] bcast_S4096_S1x4096_1 (uitofp .f32 (cmpf .oge b tb)))))
      (Host.dotGeneral (F := Ideal) dot_S1x4096_S4096x4096_S1x4096_1_0_0_1_n_n none
        (subf (broadcastInDim S1x4096 ![] bcast_S_S1x4096 (constant (F := Ideal) S_ .f32 0x3F800000#32)) x)
        (transpose S4096x4096 [1, 0]
          (subf (broadcastInDim S4096x4096 ![] bcast_S_S4096x4096 (constant (F := Ideal) S_ .f32 0x3F800000#32))
            (uitofp .f32 (cmpf .oge w tw')))
          transposes_S4096x4096_S4096x4096_1_0)))
    (broadcastInDim S1x4096 ![0, 1] bcast_S1x1_S1x4096_0_1 (broadcastInDim S1x1 ![1] bcast_S1_S1x1_1 bound)))

set_option maxHeartbeats 2000000 in
/-- The fold at the result buffer is that composition of the arguments' launch contents: each operation's result
    read at its own buffer, the three outlined remainders and the gathers folded into the shared lookup chain. -/
theorem out_eq (V : Valuation τ sig (Elt Ideal)) :
    after ops V (main_v45 : DevRef τ sig)
      = out (V (main_arg0 : DevRef τ sig)) (V (main_arg1 : DevRef τ sig))
          (lookupSq (V (main_arg3 : DevRef τ sig)) (V (main_arg6 : DevRef τ sig)))
          (lookupSq (V (main_arg3 : DevRef τ sig)) (V (main_arg8 : DevRef τ sig)))
          (V (main_arg2 : DevRef τ sig))
          (lookupVec (V (main_arg3 : DevRef τ sig)) (V (main_arg7 : DevRef τ sig)))
          (V (main_arg4 : DevRef τ sig)) (V (main_arg5 : DevRef τ sig)) := by
  after_results_simp
  rfl

/-! ## The argument buffers: no operation writes one -/

set_option maxHeartbeats 2000000 in
theorem kept_arg0 (V : Valuation τ sig (Elt Ideal)) : after ops V (main_arg0 : DevRef τ sig) = V (main_arg0 : DevRef τ sig) := by
  after_results_simp
set_option maxHeartbeats 2000000 in
theorem kept_arg1 (V : Valuation τ sig (Elt Ideal)) : after ops V (main_arg1 : DevRef τ sig) = V (main_arg1 : DevRef τ sig) := by
  after_results_simp
set_option maxHeartbeats 2000000 in
theorem kept_arg2 (V : Valuation τ sig (Elt Ideal)) : after ops V (main_arg2 : DevRef τ sig) = V (main_arg2 : DevRef τ sig) := by
  after_results_simp
set_option maxHeartbeats 2000000 in
theorem kept_arg3 (V : Valuation τ sig (Elt Ideal)) : after ops V (main_arg3 : DevRef τ sig) = V (main_arg3 : DevRef τ sig) := by
  after_results_simp
set_option maxHeartbeats 2000000 in
theorem kept_arg4 (V : Valuation τ sig (Elt Ideal)) : after ops V (main_arg4 : DevRef τ sig) = V (main_arg4 : DevRef τ sig) := by
  after_results_simp
set_option maxHeartbeats 2000000 in
theorem kept_arg5 (V : Valuation τ sig (Elt Ideal)) : after ops V (main_arg5 : DevRef τ sig) = V (main_arg5 : DevRef τ sig) := by
  after_results_simp
set_option maxHeartbeats 2000000 in
theorem kept_arg6 (V : Valuation τ sig (Elt Ideal)) : after ops V (main_arg6 : DevRef τ sig) = V (main_arg6 : DevRef τ sig) := by
  after_results_simp
set_option maxHeartbeats 2000000 in
theorem kept_arg7 (V : Valuation τ sig (Elt Ideal)) : after ops V (main_arg7 : DevRef τ sig) = V (main_arg7 : DevRef τ sig) := by
  after_results_simp
set_option maxHeartbeats 2000000 in
theorem kept_arg8 (V : Valuation τ sig (Elt Ideal)) : after ops V (main_arg8 : DevRef τ sig) = V (main_arg8 : DevRef τ sig) := by
  after_results_simp

end Cert.ReferenceIdeal.Result

end
-- ==== Proof.RefRead.lean ====
/-
  What the reference computes, read at an output column.

  Read at column c, the two products against transposed bit arrays are sums over the 4096-long axis, the bias bit
  is broadcast along the row, the bound is broadcast from its single entry, and the four terms are added in the order
  (acc + (first sum + bias bit)) + second sum, which is the layer's own order by commutativity and associativity of
  addition on the extended reals.
-/
import proofs.«147677_j24515673326112_1_alg».proof.Proof.RefValue

noncomputable section

open scoped BigOperators

namespace Cert.ReferenceIdeal.Result

open Cert.ReferenceIdeal Cert.ReferenceIdeal.Gen Cert.ReferenceIdeal.Line Idealize.ShloMosaic Idealize.ShloMosaic.TcCoe
  Idealize.SL.Sem Idealize.ShloMosaic.StableHlo Idealize.ShloMosaic.ValueIdx Cert.UnaryLinear

/-! ## The composition read at a column -/

/-- An unsigned integer-to-float conversion at an index converts the element. -/
theorem uitofp_apply {s : Shape} (x : IVec s 1) (i : s.Idx) :
    (uitofp .f32 x : FVec Ideal s .f32) i = FloatOps.uitofp (F := Ideal) .f32 (x i) := rfl

/-- The host's product of a 1 by 4096 row with a 4096 by 4096 array at column c: the sum down that column. -/
theorem product_apply (a : FVec Ideal S1x4096 .f32) (b : FVec Ideal S4096x4096 .f32) (p : Fin 1) (c : Fin 4096) :
    Host.dotGeneral (F := Ideal) dot_S1x4096_S4096x4096_S1x4096_1_0_0_1_n_n none a b (ix2 p c) = ∑ k : Fin 4096, a (ix2 p k) * b (ix2 k c) :=
  MatmulRows.dotGeneral_apply dot_S1x4096_S4096x4096_S1x4096_1_0_0_1_n_n none _ rfl rfl rfl rfl (fun _ _ => rfl) (fun _ _ => rfl) a b (ix2 p c)

/-- The transposed square array at (k, c) is the array at (c, k). -/
theorem transposed_apply (W : FVec Ideal S4096x4096 .f32) (k c : Fin 4096) :
    transpose S4096x4096 [1, 0] W transposes_S4096x4096_S4096x4096_1_0 (ix2 k c) = W (ix2 c k) :=
  HostRows.transpose_sq_apply W transposes_S4096x4096_S4096x4096_1_0 k c

/-- A 4096 vector broadcast to the 1 by 4096 row reads the vector at the column. -/
theorem row_of_vector_apply (v : FVec Ideal S4096 .f32) (p : Fin 1) (c : Fin 4096) :
    broadcastInDim S1x4096 ![1] bcast_S4096_S1x4096_1 v (ix2 p c) = v (ix1 c) :=
  HostBroadcast.vec_row_apply bcast_S4096_S1x4096_1 v (ix2 p c)

/-- The bound, one entry broadcast to 1 by 1 and then along the row, reads that entry at every column. -/
theorem bound_apply (v : FVec Ideal S1 .f32) (p : Fin 1) (c : Fin 4096) :
    broadcastInDim S1x4096 ![0, 1] bcast_S1x1_S1x4096_0_1 (broadcastInDim S1x1 ![1] bcast_S1_S1x1_1 v) (ix2 p c)
      = v (ix1 (0 : Fin 1)) :=
  (HostBroadcast.col_cols_apply bcast_S1x1_S1x4096_0_1 _ (ix2 p c)).trans
    (HostBroadcast.vec_row_apply bcast_S1_S1x1_1 v _)

/-- The constant 1.0 broadcast from a scalar reads 1.0 everywhere. -/
theorem ones_apply {t : Shape} (dims : Fin S_.rank → Fin t.rank) (h : S_.BroadcastsInDim t dims) (j : t.Idx) :
    broadcastInDim t dims h (constant (F := Ideal) S_ .f32 0x3F800000#32) j = one :=
  HostBroadcast.scalar_apply dims h _ j

/-- The first product at column c: x against the transposed weight bits is the sum over k of x(k) times the bit of
    row c, entry k. -/
theorem first_sum (x : FVec Ideal S1x4096 .f32) (w tw : FVec Ideal S4096x4096 .f32) (p : Fin 1) (c : Fin 4096) :
    Host.dotGeneral (F := Ideal) dot_S1x4096_S4096x4096_S1x4096_1_0_0_1_n_n none x
        (transpose S4096x4096 [1, 0] (uitofp .f32 (cmpf .oge w tw)) transposes_S4096x4096_S4096x4096_1_0) (ix2 p c)
      = ∑ k : Fin 4096, x (ix2 p k) * geBit (w (ix2 c k)) (tw (ix2 c k)) := by
  rw [product_apply]
  refine Finset.sum_congr rfl fun k _ => ?_
  rw [transposed_apply]
  rfl

/-- The second product at column c: 1 − x against the transposed inverted bits. -/
theorem second_sum (x : FVec Ideal S1x4096 .f32) (w tw' : FVec Ideal S4096x4096 .f32) (p : Fin 1) (c : Fin 4096) :
    Host.dotGeneral (F := Ideal) dot_S1x4096_S4096x4096_S1x4096_1_0_0_1_n_n none
        (subf (broadcastInDim S1x4096 ![] bcast_S_S1x4096 (constant (F := Ideal) S_ .f32 0x3F800000#32)) x)
        (transpose S4096x4096 [1, 0]
          (subf (broadcastInDim S4096x4096 ![] bcast_S_S4096x4096 (constant (F := Ideal) S_ .f32 0x3F800000#32))
            (uitofp .f32 (cmpf .oge w tw')))
          transposes_S4096x4096_S4096x4096_1_0) (ix2 p c)
      = ∑ k : Fin 4096, (one - x (ix2 p k)) * (one - geBit (w (ix2 c k)) (tw' (ix2 c k))) := by
  rw [product_apply]
  refine Finset.sum_congr rfl fun k _ => ?_
  rw [transposed_apply, subf_apply, subf_apply, ones_apply, ones_apply]
  rfl

/-- The reference's result at column c is the layer's column formula. -/
theorem out_apply (x : FVec Ideal S1x4096 .f32) (w tw tw' : FVec Ideal S4096x4096 .f32) (b tb : FVec Ideal S4096 .f32)
    (acc : FVec Ideal S1x4096 .f32) (bound : FVec Ideal S1 .f32) (p : Fin 1) (c : Fin 4096) :
    out x w tw tw' b tb acc bound (ix2 p c)
      = column x w tw tw' (fun j => b (ix1 j)) (fun j => tb (ix1 j)) acc (bound (ix1 (0 : Fin 1))) p c := by
  unfold out column
  rw [uitofp_apply, cmpf_apply, geBit_unsigned, addf_apply, addf_apply, addf_apply, first_sum, second_sum,
    row_of_vector_apply, bound_apply, regroup]
  rfl

/-- The layer of the reference's arguments and the shared lookups. -/
theorem out_eq_layer (x : FVec Ideal S1x4096 .f32) (w tw tw' : FVec Ideal S4096x4096 .f32) (b tb : FVec Ideal S4096 .f32)
    (acc : FVec Ideal S1x4096 .f32) (bound : FVec Ideal S1 .f32) :
    out x w tw tw' b tb acc bound
      = layer x w tw tw' (fun j => b (ix1 j)) (fun j => tb (ix1 j)) acc (bound (ix1 (0 : Fin 1))) := by
  funext j
  obtain ⟨p, c, rfl⟩ : ∃ (p : Fin 1) (c : Fin 4096), j = ix2 p c := ⟨j 0, j 1, eq_ix2 j⟩
  rw [out_apply, layer_apply]

/-! ## The run -/

/-- Every weakly fair execution of the reference terminates with its result at the layer of its arguments (the
    thresholds by the shared lookup chain) and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45)
        = layer (m ((c.tc : Thread nD τ).loc main_arg0)) (m ((c.tc : Thread nD τ).loc main_arg1))
            (lookupSq (m ((c.tc : Thread nD τ).loc main_arg3)) (m ((c.tc : Thread nD τ).loc main_arg6)))
            (lookupSq (m ((c.tc : Thread nD τ).loc main_arg3)) (m ((c.tc : Thread nD τ).loc main_arg8)))
            (fun j => (m ((c.tc : Thread nD τ).loc main_arg2) : S4096.Idx → EReal) (ix1 j))
            (fun j => lookupVec (m ((c.tc : Thread nD τ).loc main_arg3)) (m ((c.tc : Thread nD τ).loc main_arg7)) (ix1 j))
            (m ((c.tc : Thread nD τ).loc main_arg4))
            ((m ((c.tc : Thread nD τ).loc main_arg5) : S1.Idx → EReal) (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v45).trans ((out_eq (launchContents m c)).trans (out_eq_layer _ _ _ _ _ _ _ _)),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _), (h c main_arg7).trans (kept_arg7 _), (h c main_arg8).trans (kept_arg8 _)⟩)
    (run_fold m ρ)

end Cert.ReferenceIdeal.Result

end
-- ==== Proof.lean ====
/-
  The unary linear layer: a Pallas kernel against its jnp reference, equal on the extended reals.

  Both programs take a row of input bits x[1, 4096], stored weights w[4096, 4096] and bias b[4096], a 256-entry
  table, an accumulator acc[1, 4096], a bound, and three integer index arrays. Each first looks three threshold
  arrays up in the table (rng[idx mod 256], the same chain of host operations in both programs) and then forms, for
  every output column c, the bit

      [ acc(c) + Σ_k x(k)·[w(c,k) ≥ tw(c,k)] + Σ_k (1 − x(k))·(1 − [w(c,k) ≥ tw'(c,k)]) + [b(c) ≥ tb(c)]  ≥  bound ].

  The kernel does this in 16 grid points of 256 columns each, contracting the 4096-long axis of both operands of
  each product on the matrix unit and adding the four terms as ((acc + first sum) + second sum) + bias bit. The
  reference does it on the host with two products against transposed bit arrays and adds the terms as
  (acc + (first sum + bias bit)) + second sum. At the ideal instance a change of float format is the identity, a
  product into a zero accumulator is the plain sum, the two spellings of a comparison's bit are both 0 or 1, and
  the two orders of addition agree because + on the extended reals is commutative and associative; no finiteness of
  the inputs is used.

  The frames of the two kernel programs are the generated frame certificates; the reference's frame is its run as
  a straight line of 117 host operations with the result dropped; the idealization rewrote nothing, so it is
  preserved trivially; and the two runs end with the same array, the layer of the shared arguments.
-/
import proofs.«147677_j24515673326112_1_alg».proof.Defs
import proofs.«147677_j24515673326112_1_alg».proof.Proof.Gen.Kernel
import proofs.«147677_j24515673326112_1_alg».proof.Proof.Gen.Kernel.Skeleton
import proofs.«147677_j24515673326112_1_alg».proof.Proof.Gen.Kernel.Launch
import proofs.«147677_j24515673326112_1_alg».proof.Proof.Gen.Kernel.Points
import proofs.«147677_j24515673326112_1_alg».proof.Proof.Gen.Kernel.Frame
import proofs.«147677_j24515673326112_1_alg».proof.Proof.Gen.KernelIdeal
import proofs.«147677_j24515673326112_1_alg».proof.Proof.Gen.KernelIdeal.Skeleton
import proofs.«147677_j24515673326112_1_alg».proof.Proof.Gen.KernelIdeal.Launch
import proofs.«147677_j24515673326112_1_alg».proof.Proof.Gen.KernelIdeal.Points
import proofs.«147677_j24515673326112_1_alg».proof.Proof.Gen.KernelIdeal.Frame
import proofs.«147677_j24515673326112_1_alg».proof.Proof.Gen.KernelIdeal.Value
import proofs.«147677_j24515673326112_1_alg».proof.Proof.Gen.ReferenceIdeal
import proofs.«147677_j24515673326112_1_alg».proof.Proof.Gen.Pre_finite_inputs
import proofs.«147677_j24515673326112_1_alg».proof.Proof.KernelValue
import proofs.«147677_j24515673326112_1_alg».proof.Proof.RefRead
import Idealize.ShloMosaic.Adequacy
import Idealize.ShloMosaic.Init

noncomputable section

namespace Cert.Proof

open Idealize.ShloMosaic Idealize.SL.Sem

/-- The printed kernel runs and leaves its arguments unchanged: the generated frame certificate. -/
theorem frame_kernel : Cert.frame_Kernel := fun m ρ _ => Cert.Kernel.Gen.frame m ρ

/-- The idealized kernel likewise. -/
theorem frame_kernel_ideal : Cert.frame_KernelIdeal := fun m ρ _ => Cert.KernelIdeal.Gen.frame m ρ

/-- The reference runs and leaves its arguments unchanged: its run as a straight line, the result dropped. -/
theorem frame_reference : Cert.frame_ReferenceIdeal := fun m ρ _ =>
  (θ_run Cert.ReferenceIdeal.defs _ _).mono (fun _ h c => (h c).2) (Cert.ReferenceIdeal.Result.run m ρ)

/-- The ideal pass rewrote no operation of the kernel. -/
theorem preserves : Cert.preserves_Kernel_KernelIdeal := trivial

/-- From memories agreeing on the arguments both programs end with the layer of those arguments: the kernel block
    by block over its 16 grid points, the reference as one composition of host operations read at a column. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Result.run m' ρ')
  have e := hagree c
  rw [e.1, e.2.1, e.2.2.1, e.2.2.2.1, e.2.2.2.2.1, e.2.2.2.2.2.1, e.2.2.2.2.2.2.1, e.2.2.2.2.2.2.2.1, e.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
